-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256x64x64 .f32) (main_arg1 : FVec F S5x256x256 .f32) (main_arg2 : FVec F S256 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S5x256x256 .f32 := Host.absf main_arg1
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩
abbrev S5x256 : Shape := ⟨2, ![5, 256]⟩
abbrev S5x256x1 : Shape := ⟨3, ![5, 256, 1]⟩
abbrev S1x256 : Shape := ⟨2, ![1, 256]⟩
abbrev S16x256x62x62 : Shape := ⟨4, ![16, 256, 62, 62]⟩
abbrev S1x256x64x64 : Shape := ⟨4, ![1, 256, 64, 64]⟩
abbrev S1x256x62x62 : Shape := ⟨4, ![1, 256, 62, 62]⟩
abbrev S62x62x256 : Shape := ⟨3, ![62, 62, 256]⟩
abbrev S256x64x64 : Shape := ⟨3, ![256, 64, 64]⟩
abbrev S64x64x256 : Shape := ⟨3, ![64, 64, 256]⟩
abbrev S4096x256 : Shape := ⟨2, ![4096, 256]⟩
abbrev S1x256x256 : Shape := ⟨3, ![1, 256, 256]⟩
abbrev S256x256 : Shape := ⟨2, ![256, 256]⟩
abbrev S1x1x256 : Shape := ⟨3, ![1, 1, 256]⟩
abbrev S256x62x62 : Shape := ⟨3, ![256, 62, 62]⟩

abbrev nBuf : Space → Nat
  | .hbm => 22
  | .vmem => 7
  | .smem => 0
  | _ => 0

abbrev bufTy : (tb : Table) → Fin (tcTables nBuf tb) → BufTy
  | .hbm, ⟨0, _⟩ => ⟨S16x256x64x64, .f32⟩
  | .hbm, ⟨1, _⟩ => ⟨S5x256x256, .f32⟩
  | .hbm, ⟨2, _⟩ => ⟨S256, .f32⟩
  | .hbm, ⟨3, _⟩ => ⟨S_, .f32⟩
  | .hbm, ⟨4, _⟩ => ⟨S5x256, .f32⟩
  | .hbm, ⟨5, _⟩ => ⟨S5x256x1, .f32⟩
  | .hbm, ⟨6, _⟩ => ⟨S_, .f32⟩
  | .hbm, ⟨7, _⟩ => ⟨S5x256x1, .f32⟩
  | .hbm, ⟨8, _⟩ => ⟨S5x256x1, .f32⟩
  | .hbm, ⟨9, _⟩ => ⟨S5x256x256, .f32⟩
  | .hbm, ⟨10, _⟩ => ⟨S5x256x256, .f32⟩
  | .hbm, ⟨11, _⟩ => ⟨S5x256x256, .f32⟩
  | .hbm, ⟨12, _⟩ => ⟨S_, .f32⟩
  | .hbm, ⟨13, _⟩ => ⟨S5x256, .f32⟩
  | .hbm, ⟨14, _⟩ => ⟨S5x256x1, .f32⟩
  | .hbm, ⟨15, _⟩ => ⟨S5x256x1, .f32⟩
  | .hbm, ⟨16, _⟩ => ⟨S5x256x256, .f32⟩
  | .hbm, ⟨17, _⟩ => ⟨S5x256x256, .f32⟩
  | .hbm, ⟨18, _⟩ => ⟨S5x256x256, .f32⟩
  | .hbm, ⟨19, _⟩ => ⟨S5x256x256, .bf16⟩
  | .hbm, ⟨20, _⟩ => ⟨S1x256, .f32⟩
  | .hbm, ⟨21, _⟩ => ⟨S16x256x62x62, .f32⟩
  | .local _ .vmem, ⟨0, _⟩ => ⟨S1x256x64x64, .f32⟩
  | .local _ .vmem, ⟨1, _⟩ => ⟨S1x256x64x64, .f32⟩
  | .local _ .vmem, ⟨2, _⟩ => ⟨S5x256x256, .bf16⟩
  | .local _ .vmem, ⟨3, _⟩ => ⟨S1x256, .f32⟩
  | .local _ .vmem, ⟨4, _⟩ => ⟨S1x256x62x62, .f32⟩
  | .local _ .vmem, ⟨5, _⟩ => ⟨S1x256x62x62, .f32⟩
  | .local _ .vmem, ⟨6, _⟩ => ⟨S62x62x256, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x62x62 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S5x256x256_S5x256_d2 : S5x256x256.ReducesTo [2] S5x256
  h_S_ : 0 < S_.numel
  bcast_S5x256_S5x256x1_0_1 : S5x256.BroadcastsInDim S5x256x1 (![0, 1] : Fin 2 → Fin S5x256x1.rank)
  bcast_S_S5x256x1 : S_.BroadcastsInDim S5x256x1 (![] : Fin 0 → Fin S5x256x1.rank)
  bcast_S5x256x1_S5x256x256_0_1_2 : S5x256x1.BroadcastsInDim S5x256x256 (![0, 1, 2] : Fin 3 → Fin S5x256x256.rank)
  transposes_S5x256x256_S5x256x256_0_2_1 : S5x256x256.Transposes [0, 2, 1] S5x256x256
  bitsLt_bf16_f32 : FTy.bits .bf16 < FTy.bits .f32
  shapeCasts_S256_S1x256 : S256.ShapeCasts S1x256
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  transposes_S256x64x64_p1_2_0_S64x64x256 : S256x64x64.Transposes [1, 2, 0] S64x64x256
  shapeCasts_S64x64x256_S4096x256 : S64x64x256.ShapeCasts S4096x256
  inb_S62x62x256_S62x62x256_0_0_0 : ∀ a, (![0, 0, 0] : Fin 3 → Nat) a + S62x62x256.size a ≤ S62x62x256.size a
  h_S62x62x256 : 0 < S62x62x256.numel
  shapeCasts_S62x62x256_S62x62x256 : S62x62x256.ShapeCasts S62x62x256
  inb_S5x256x256_S1x256x256_0_0_0 : ∀ a, (![0, 0, 0] : Fin 3 → Nat) a + S1x256x256.size a ≤ S5x256x256.size a
  h_S1x256x256 : 0 < S1x256x256.numel
  shapeCasts_S1x256x256_S256x256 : S1x256x256.ShapeCasts S256x256
  shapeCasts_S4096x256_S64x64x256 : S4096x256.ShapeCasts S64x64x256
  slices_S64x64x256_o0_0_0_S62x62x256 : S64x64x256.Slices ![0, 0, 0] S62x62x256
  inb_S5x256x256_S1x256x256_1_0_0 : ∀ a, (![1, 0, 0] : Fin 3 → Nat) a + S1x256x256.size a ≤ S5x256x256.size a
  slices_S64x64x256_o0_2_0_S62x62x256 : S64x64x256.Slices ![0, 2, 0] S62x62x256
  inb_S5x256x256_S1x256x256_2_0_0 : ∀ a, (![2, 0, 0] : Fin 3 → Nat) a + S1x256x256.size a ≤ S5x256x256.size a
  slices_S64x64x256_o1_1_0_S62x62x256 : S64x64x256.Slices ![1, 1, 0] S62x62x256
  inb_S5x256x256_S1x256x256_3_0_0 : ∀ a, (![3, 0, 0] : Fin 3 → Nat) a + S1x256x256.size a ≤ S5x256x256.size a
  slices_S64x64x256_o2_0_0_S62x62x256 : S64x64x256.Slices ![2, 0, 0] S62x62x256
  inb_S5x256x256_S1x256x256_4_0_0 : ∀ a, (![4, 0, 0] : Fin 3 → Nat) a + S1x256x256.size a ≤ S5x256x256.size a
  slices_S64x64x256_o2_2_0_S62x62x256 : S64x64x256.Slices ![2, 2, 0] S62x62x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S62x62x256 : S1x1x256.Broadcasts S62x62x256
  transposes_S62x62x256_p2_0_1_S256x62x62 : S62x62x256.Transposes [2, 0, 1] S256x62x62
  inb_S1x256x62x62_S1x256x62x62_0_0_0_0 : ∀ a, (![0, 0, 0, 0] : Fin 4 → Nat) a + S1x256x62x62.size a ≤ S1x256x62x62.size a
  h_S1x256x62x62 : 0 < S1x256x62x62.numel
  shapeCasts_S1x256x62x62_S256x62x62 : S1x256x62x62.ShapeCasts S256x62x62
  shapeCasts_S256x62x62_S1x256x62x62 : S256x62x62.ShapeCasts S1x256x62x62
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S16x256x64x64.size a
  hwx0_0 : ∀ i : grid0.Coords, EltTy.bits .f32 = 32 ∨ (Rect.block (s := S16x256x64x64) S1x256x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x256x256.size a ≤ S5x256x256.size a
  hwx0_1 : ∀ i : grid0.Coords, EltTy.bits .bf16 = 32 ∨ (Rect.block (s := S5x256x256) S5x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x62x62.size a ≤ S16x256x62x62.size a
  hwx0_3 : ∀ i : grid0.Coords, EltTy.bits .f32 = 32 ∨ (Rect.block (s := S16x256x62x62) S1x256x62x62.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256x62x62.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩
abbrev S5x256 : Shape := ⟨2, ![5, 256]⟩
abbrev S5x256x1 : Shape := ⟨3, ![5, 256, 1]⟩
abbrev S16x64x64x256 : Shape := ⟨4, ![16, 64, 64, 256]⟩
abbrev S16x62x62x256 : Shape := ⟨4, ![16, 62, 62, 256]⟩
abbrev S1x256x256 : Shape := ⟨3, ![1, 256, 256]⟩
abbrev S256x256 : Shape := ⟨2, ![256, 256]⟩
abbrev S1x1x1x256 : Shape := ⟨4, ![1, 1, 1, 256]⟩
abbrev S16x256x62x62 : Shape := ⟨4, ![16, 256, 62, 62]⟩

abbrev nBuf : Space → Nat
  | .hbm => 50
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S5x256x256, .f32⟩
  | .hbm, ⟨2, _⟩ => ⟨S256, .f32⟩
  | .hbm, ⟨3, _⟩ => ⟨S_, .f32⟩
  | .hbm, ⟨4, _⟩ => ⟨S5x256, .f32⟩
  | .hbm, ⟨5, _⟩ => ⟨S5x256x1, .f32⟩
  | .hbm, ⟨6, _⟩ => ⟨S_, .f32⟩
  | .hbm, ⟨7, _⟩ => ⟨S5x256x1, .f32⟩
  | .hbm, ⟨8, _⟩ => ⟨S5x256x1, .f32⟩
  | .hbm, ⟨9, _⟩ => ⟨S5x256x256, .f32⟩
  | .hbm, ⟨10, _⟩ => ⟨S5x256x256, .f32⟩
  | .hbm, ⟨11, _⟩ => ⟨S5x256x256, .f32⟩
  | .hbm, ⟨12, _⟩ => ⟨S_, .f32⟩
  | .hbm, ⟨13, _⟩ => ⟨S5x256, .f32⟩
  | .hbm, ⟨14, _⟩ => ⟨S5x256x1, .f32⟩
  | .hbm, ⟨15, _⟩ => ⟨S5x256x1, .f32⟩
  | .hbm, ⟨16, _⟩ => ⟨S5x256x256, .f32⟩
  | .hbm, ⟨17, _⟩ => ⟨S5x256x256, .f32⟩
  | .hbm, ⟨18, _⟩ => ⟨S16x64x64x256, .f32⟩
  | .hbm, ⟨19, _⟩ => ⟨S16x62x62x256, .f32⟩
  | .hbm, ⟨20, _⟩ => ⟨S1x256x256, .f32⟩
  | .hbm, ⟨21, _⟩ => ⟨S256x256, .f32⟩
  | .hbm, ⟨22, _⟩ => ⟨S16x62x62x256, .f32⟩
  | .hbm, ⟨23, _⟩ => ⟨S16x62x62x256, .f32⟩
  | .hbm, ⟨24, _⟩ => ⟨S1x256x256, .f32⟩
  | .hbm, ⟨25, _⟩ => ⟨S256x256, .f32⟩
  | .hbm, ⟨26, _⟩ => ⟨S16x62x62x256, .f32⟩
  | .hbm, ⟨27, _⟩ => ⟨S16x62x62x256, .f32⟩
  | .hbm, ⟨28, _⟩ => ⟨S16x62x62x256, .f32⟩
  | .hbm, ⟨29, _⟩ => ⟨S1x256x256, .f32⟩
  | .hbm, ⟨30, _⟩ => ⟨S256x256, .f32⟩
  | .hbm, ⟨31, _⟩ => ⟨S16x62x62x256, .f32⟩
  | .hbm, ⟨32, _⟩ => ⟨S16x62x62x256, .f32⟩
  | .hbm, ⟨33, _⟩ => ⟨S16x62x62x256, .f32⟩
  | .hbm, ⟨34, _⟩ => ⟨S1x256x256, .f32⟩
  | .hbm, ⟨35, _⟩ => ⟨S256x256, .f32⟩
  | .hbm, ⟨36, _⟩ => ⟨S16x62x62x256, .f32⟩
  | .hbm, ⟨37, _⟩ => ⟨S16x62x62x256, .f32⟩
  | .hbm, ⟨38, _⟩ => ⟨S16x62x62x256, .f32⟩
  | .hbm, ⟨39, _⟩ => ⟨S1x256x256, .f32⟩
  | .hbm, ⟨40, _⟩ => ⟨S256x256, .f32⟩
  | .hbm, ⟨41, _⟩ => ⟨S16x62x62x256, .f32⟩
  | .hbm, ⟨42, _⟩ => ⟨S16x62x62x256, .f32⟩
  | .hbm, ⟨43, _⟩ => ⟨S1x1x1x256, .f32⟩
  | .hbm, ⟨44, _⟩ => ⟨S16x62x62x256, .f32⟩
  | .hbm, ⟨45, _⟩ => ⟨S16x62x62x256, .f32⟩
  | .hbm, ⟨46, _⟩ => ⟨S_, .f32⟩
  | .hbm, ⟨47, _⟩ => ⟨S16x62x62x256, .f32⟩
  | .hbm, ⟨48, _⟩ => ⟨S16x62x62x256, .f32⟩
  | .hbm, ⟨49, _⟩ => ⟨S16x256x62x62, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  reducesTo_S5x256x256_S5x256_d2 : S5x256x256.ReducesTo [2] S5x256
  h_S_ : 0 < S_.numel
  bcast_S5x256_S5x256x1_0_1 : S5x256.BroadcastsInDim S5x256x1 (![0, 1] : Fin 2 → Fin S5x256x1.rank)
  bcast_S_S5x256x1 : S_.BroadcastsInDim S5x256x1 (![] : Fin 0 → Fin S5x256x1.rank)
  bcast_S5x256x1_S5x256x256_0_1_2 : S5x256x1.BroadcastsInDim S5x256x256 (![0, 1, 2] : Fin 3 → Fin S5x256x256.rank)
  transposes_S16x256x64x64_S16x64x64x256_0_2_3_1 : S16x256x64x64.Transposes [0, 2, 3, 1] S16x64x64x256
  slices_S16x64x64x256_S16x62x62x256_0_0_0_0 : S16x64x64x256.Slices ![0, 0, 0, 0] S16x62x62x256
  slices_S5x256x256_S1x256x256_0_0_0 : S5x256x256.Slices ![0, 0, 0] S1x256x256
  shapeCasts_S1x256x256_S256x256 : S1x256x256.ShapeCasts S256x256
  slices_S16x64x64x256_S16x62x62x256_0_0_2_0 : S16x64x64x256.Slices ![0, 0, 2, 0] S16x62x62x256
  slices_S5x256x256_S1x256x256_1_0_0 : S5x256x256.Slices ![1, 0, 0] S1x256x256
  slices_S16x64x64x256_S16x62x62x256_0_1_1_0 : S16x64x64x256.Slices ![0, 1, 1, 0] S16x62x62x256
  slices_S5x256x256_S1x256x256_2_0_0 : S5x256x256.Slices ![2, 0, 0] S1x256x256
  slices_S16x64x64x256_S16x62x62x256_0_2_0_0 : S16x64x64x256.Slices ![0, 2, 0, 0] S16x62x62x256
  slices_S5x256x256_S1x256x256_3_0_0 : S5x256x256.Slices ![3, 0, 0] S1x256x256
  slices_S16x64x64x256_S16x62x62x256_0_2_2_0 : S16x64x64x256.Slices ![0, 2, 2, 0] S16x62x62x256
  slices_S5x256x256_S1x256x256_4_0_0 : S5x256x256.Slices ![4, 0, 0] S1x256x256
  bcast_S256_S1x1x1x256_3 : S256.BroadcastsInDim S1x1x1x256 (![3] : Fin 1 → Fin S1x1x1x256.rank)
  bcast_S1x1x1x256_S16x62x62x256_0_1_2_3 : S1x1x1x256.BroadcastsInDim S16x62x62x256 (![0, 1, 2, 3] : Fin 4 → Fin S16x62x62x256.rank)
  bcast_S_S16x62x62x256 : S_.BroadcastsInDim S16x62x62x256 (![] : Fin 0 → Fin S16x62x62x256.rank)
  transposes_S16x62x62x256_S16x256x62x62_0_3_1_2 : S16x62x62x256.Transposes [0, 3, 1, 2] S16x256x62x62
  dot_S16x62x62x256_S256x256_S16x62x62x256_3_1_012_0_n_n_wf : DotDims.WF S16x62x62x256 S256x256 S16x62x62x256 [3] [1] [0, 1, 2] [0] [] []

variable [Facts₀]

def dot_S16x62x62x256_S256x256_S16x62x62x256_3_1_012_0_n_n : DotDims S16x62x62x256 S256x256 S16x62x62x256 where
  lhsContracting := [3]
  rhsContracting := [1]
  lhsNonContracting := [0, 1, 2]
  rhsNonContracting := [0]
  lhsBatch := []
  rhsBatch := []
  wf := dot_S16x62x62x256_S256x256_S16x62x62x256_3_1_012_0_n_n_wf

class Facts : Prop extends Facts₀ where

variable [Facts]
-- ==== Proof.KernelBlock.lean ====
/-
  One grid point's output block as ONE pure term of the three input blocks — the image block, the
  five staged weight slabs and the bias row: the accumulator starts at zero, takes each tap's cropped
  product in turn, then the bias row and the scale, and is written channel-first.
-/
import proofs.«117932_j16673063043688_2_alg».proof.Proof.Gen.KernelIdeal.Skeleton
import Idealize.ShloMosaic.Lib.Pipeline.Value

noncomputable section

namespace Cert.KernelIdeal.Body

open Cert.KernelIdeal Cert.KernelIdeal.Gen Idealize.ShloMosaic Idealize.ShloMosaic.TcCoe
open Idealize.SL Idealize.SL.Sem

variable {F : FTy → Type} [FloatOps F]

/-- Weight slab `k` of the staged weights: the [1, 256, 256] rectangle at offset `k` on the tap axis. -/
abbrev slab0 (x1 : Vec F S5x256x256 .bf16) : Vec F S1x256x256 .bf16 :=
  View.ld x1 (Rect.unit (s := S5x256x256) ![0, 0, 0] S1x256x256.size inb_S5x256x256_S1x256x256_0_0_0)
abbrev slab1 (x1 : Vec F S5x256x256 .bf16) : Vec F S1x256x256 .bf16 :=
  View.ld x1 (Rect.unit (s := S5x256x256) ![1, 0, 0] S1x256x256.size inb_S5x256x256_S1x256x256_1_0_0)
abbrev slab2 (x1 : Vec F S5x256x256 .bf16) : Vec F S1x256x256 .bf16 :=
  View.ld x1 (Rect.unit (s := S5x256x256) ![2, 0, 0] S1x256x256.size inb_S5x256x256_S1x256x256_2_0_0)
abbrev slab3 (x1 : Vec F S5x256x256 .bf16) : Vec F S1x256x256 .bf16 :=
  View.ld x1 (Rect.unit (s := S5x256x256) ![3, 0, 0] S1x256x256.size inb_S5x256x256_S1x256x256_3_0_0)
abbrev slab4 (x1 : Vec F S5x256x256 .bf16) : Vec F S1x256x256 .bf16 :=
  View.ld x1 (Rect.unit (s := S5x256x256) ![4, 0, 0] S1x256x256.size inb_S5x256x256_S1x256x256_4_0_0)

/-- The accumulator after the five taps: zeros, plus each tap's cropped product in turn. -/
def acc (x0 : Vec F S1x256x64x64 .f32) (x1 : Vec F S5x256x256 .bf16) : FVec F S62x62x256 .f32 :=
  k0_pay10 (k0_pay4 x0) (slab4 x1) (k0_pay9 (k0_pay4 x0) (slab3 x1) (k0_pay8 (k0_pay4 x0) (slab2 x1)
    (k0_pay7 x0 (slab1 x1) (k0_pay6 x0 (slab0 x1) (k0_pay5 (F := F))))))

/-- The output block: the accumulator plus the bias row, scaled, channel-first. -/
def block (x0 : Vec F S1x256x64x64 .f32) (x1 : Vec F S5x256x256 .bf16) (x2 : Vec F S1x256 .f32) :
    Vec F S1x256x62x62 .f32 :=
  k0_pay3 (k0_pay2 x2 (k0_pay1 (acc x0 x1)))

end Cert.KernelIdeal.Body

end
-- ==== Proof.KernelBody.lean ====
/-
  What the body leaves in the output block at one grid point, as ONE pure term of the three input
  blocks: the image block, the five staged weight slabs and the bias row.

  The body keeps its accumulator in a scratch buffer: it fills the buffer with zeros, then five times
  reads it back whole, adds one tap's cropped product, and stores it whole; then reads it back, adds the
  bias row and scales, stores it, reads it back once more and stores its channel-first transpose to the
  output block. Every store to the scratch buffer covers the whole buffer, so every read-back reads
  exactly the payload of the store before it, whatever was stored earlier. Collapsing the seven
  read-backs in turn leaves the nested term `block`.
-/
import proofs.«117932_j16673063043688_2_alg».proof.Proof.Gen.KernelIdeal.Frame
import proofs.«117932_j16673063043688_2_alg».proof.Proof.KernelBlock
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.Sem

variable {F : FTy → Type} [FloatOps F]

/-- The all-zero offsets of the scratch buffer's whole rectangle. -/
theorem off3_zero : (![0, 0, 0] : Fin 3 → Nat) = fun _ => 0 := by
  funext a; match a with | ⟨0, _⟩ => rfl | ⟨1, _⟩ => rfl | ⟨2, _⟩ => rfl

theorem off4_zero : (![0, 0, 0, 0] : Fin 4 → Nat) = fun _ => 0 := by
  funext a; match a with | ⟨0, _⟩ => rfl | ⟨1, _⟩ => rfl | ⟨2, _⟩ => rfl | ⟨3, _⟩ => rfl

theorem off2_zero : (![0, 0] : Fin 2 → Nat) = fun _ => 0 := by
  funext a; match a with | ⟨0, _⟩ => rfl | ⟨1, _⟩ => rfl

/-- A whole read-back of the accumulator after a whole store reads that store's payload, whatever
    was stored before. -/
theorem readback {sig' : RefSig} {κ : Kind} {sp : Space} (v : View sig' κ sp S62x62x256 .f32)
    (w : S62x62x256.Idx → Elt F .f32) (L : List (View.Piece (Elt F) S62x62x256 .f32)) :
    v.readCov ((⟨Rect.unit (s := S62x62x256) ![0, 0, 0] S62x62x256.size inb_S62x62x256_S62x62x256_0_0_0, w⟩ :
        View.Piece (Elt F) S62x62x256 .f32) :: L)
      (Rect.unit (s := S62x62x256) ![0, 0, 0] S62x62x256.size inb_S62x62x256_S62x62x256_0_0_0).toLoadRect = w := by
  rw [View.readCov_eq_canon_ld _ _ _ (fun y => ⟨_, List.mem_cons_self, View.mem_set_unit_zero off3_zero inb_S62x62x256_S62x62x256_0_0_0 y⟩),
    View.canon_cons_unit_zero off3_zero, View.ld_unit_zero off3_zero]

/-- The pieces the body's run leaves in the output block, read back, are `block` of the input blocks. -/
theorem out_eq_block (c : Dev nD) (i : grid0.Coords) (arg1 : Memref sig .tc .vmem S1x256x64x64 .f32) (harg1 : arg1.IsWhole)
    (arg2 : Memref sig .tc .vmem S5x256x256 .bf16) (harg2 : arg2.IsWhole) (arg3 : Memref sig .tc .vmem S1x256 .f32) (harg3 : arg3.IsWhole)
    (arg4 : Memref sig .tc .vmem S1x256x62x62 .f32) (harg4 : arg4.IsWhole) (arg5 : Memref sig .tc .vmem S62x62x256 .f32) (harg5 : arg5.IsWhole)
    (x0 : Vec F S1x256x64x64 .f32) (x1 : Vec F S5x256x256 .bf16) (x2 : Vec F S1x256 .f32) :
    out0_A_3 c i arg1 harg1 arg2 harg2 arg3 harg3 arg4 harg4 arg5 harg5 x0 x1 x2 = block x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero off4_zero]
  rw [readback, readback, readback, readback, readback, readback, readback]
  simp only [View.readAt_eq_ld, harg1.read_unread, harg2.read_unread, harg3.read_unread,
    View.ld_unit_zero (S := S1x256x64x64) off4_zero, View.ld_unit_zero (S := S1x256) off2_zero]
  rfl

end Cert.KernelIdeal.Body

end
-- ==== Proof.ConvSpec.lean ====
/-
  The sparse 3×3 convolution both programs compute, as one function of three arrays: an image batch
  `x` [16, 256, 64, 64] (batch, input channel, row, column), standardized weights `wn` [5, 256, 256]
  (tap, output channel, input channel) and a bias [256].

  The five taps sit at the offsets (0,0), (0,2), (1,1), (2,0), (2,2) of a 3×3 window. Tap `k` at offset
  (dh, dw) contributes, to output channel `o` at pixel (h, w) of image `b`,
      ∑ i, x[b, i, h + dh, w + dw] · wn[k, o, i].
  The result at [b, o, h, w] is the five contributions added left to right, plus bias[o], times a scale.
  Nothing here mentions a program.
-/
import Idealize.ShloMosaic.PureOps.Ideal
import Idealize.ShloMosaic.Lib.ValueIdx

noncomputable section

namespace Cert.ConvSpec

open Idealize.ShloMosaic Idealize.ShloMosaic.ValueIdx
open scoped BigOperators

/-- A coordinate of the 62-wide output moved by a tap offset of at most 2 is a coordinate of the 64-wide image. -/
def shift (d : Fin 3) (h : Fin 62) : Fin 64 := ⟨h.val + d.val, by omega⟩

@[simp] theorem shift_val (d : Fin 3) (h : Fin 62) : (shift d h).val = h.val + d.val := rfl

/-- One tap's contribution at one output entry: the input channels contracted against the tap's weights. -/
def tap (x : (⟨4, ![16, 256, 64, 64]⟩ : Shape).Idx → EReal) (wn : (⟨3, ![5, 256, 256]⟩ : Shape).Idx → EReal)
    (k : Fin 5) (dh dw : Fin 3) (b : Fin 16) (o : Fin 256) (h w : Fin 62) : EReal :=
  ∑ i : Fin 256, x (ix4 b i (shift dh h) (shift dw w)) * wn (ix3 k o i)

/-- The five taps added left to right. -/
def taps (x : (⟨4, ![16, 256, 64, 64]⟩ : Shape).Idx → EReal) (wn : (⟨3, ![5, 256, 256]⟩ : Shape).Idx → EReal)
    (b : Fin 16) (o : Fin 256) (h w : Fin 62) : EReal :=
  tap x wn 0 0 0 b o h w + tap x wn 1 0 2 b o h w + tap x wn 2 1 1 b o h w + tap x wn 3 2 0 b o h w
    + tap x wn 4 2 2 b o h w

/-- The convolution: taps plus bias, scaled by `c`, channel-first. -/
def conv (x : (⟨4, ![16, 256, 64, 64]⟩ : Shape).Idx → EReal) (wn : (⟨3, ![5, 256, 256]⟩ : Shape).Idx → EReal)
    (bias : (⟨1, ![256]⟩ : Shape).Idx → EReal) (c : EReal) : (⟨4, ![16, 256, 62, 62]⟩ : Shape).Idx → EReal :=
  fun j => (taps x wn (j 0) (j 1) (j 2) (j 3) + bias (ix1 (j 1))) * c

theorem conv_apply (x : (⟨4, ![16, 256, 64, 64]⟩ : Shape).Idx → EReal) (wn : (⟨3, ![5, 256, 256]⟩ : Shape).Idx → EReal)
    (bias : (⟨1, ![256]⟩ : Shape).Idx → EReal) (c : EReal) (b : Fin 16) (o : Fin 256) (h w : Fin 62) :
    conv x wn bias c (ix4 b o h w) = (taps x wn b o h w + bias (ix1 o)) * c := rfl

end Cert.ConvSpec

end
-- ==== Proof.KernelTap.lean ====
/-
  The output block of one grid point read at an entry, at the exact values.

  The body flattens the image block x0[1, 256, 64, 64] to a matrix with one row per pixel and one column
  per input channel: row 64·p + q is pixel (p, q), and its entry at column i is x0[0, i, p, q]. Each tap's
  product with that tap's weight slab, read at row 64·(h + dh) + (w + dw) — the pixel the crop at offset
  (dh, dw) puts at (h, w) — and output channel o, is the contraction ∑ i, x0[0, i, h + dh, w + dw] · slab[0, i, o].
  Adding the five into the zeroed accumulator, then the bias row and the scale, and writing channel-first,
  gives the block's entry at (0, o, h, w).
-/
import proofs.«117932_j16673063043688_2_alg».proof.Proof.KernelBlock
import proofs.«117932_j16673063043688_2_alg».proof.Proof.ConvSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx Cert.ConvSpec
open scoped BigOperators

/-- The dimension numbers of the body's products: [4096, 256] by [256, 256], contracting the
    left operand's columns against the right operand's rows. -/
abbrev DD : DotDims S4096x256 S256x256 S4096x256 := dot_S4096x256_S256x256_S4096x256_1_0_0_1_n_n

/-- Pixel (p, q) of the 64 × 64 image is row 64·p + q of the flattened image. -/
def row (p q : Fin 64) : Fin 4096 := ⟨p.val * 64 + q.val, by have := p.isLt; have := q.isLt; omega⟩

/-- The flattened image: row (p, q), column i holds channel i of pixel (p, q). -/
theorem flat_apply (x0 : Vec Ideal S1x256x64x64 .f32) (p q : Fin 64) (i : Fin 256) :
    k0_pay4 x0 (ix2 (row p q) i) = x0 (ix4 (0 : Fin 1) i p q) := by
  unfold k0_pay4
  refine (shapeCast_apply _ shapeCasts_S64x64x256_S4096x256 (ix2 (row p q) i) (ix3 p q i) ?_).trans ?_
  · rw [Shape.rowMajor_val_three, Shape.rowMajor_val_two]; rfl
  refine (transpose_apply [1, 2, 0] _ transposes_S256x64x64_p1_2_0_S64x64x256 (ix3 p q i) (ix3 i p q)
    (fun b => match b with | ⟨0, _⟩ => rfl | ⟨1, _⟩ => rfl | ⟨2, _⟩ => rfl)).trans ?_
  exact shapeCast_1abc_abc_apply _ shapeCasts_S1x256x64x64_S256x64x64 i p q

theorem lhs0 (j : S4096x256.Idx) (q : DD.contr.Idx) : (DD.lhsIdx j q 0).val = (j 0).val := by
  unfold DotDims.lhsIdx
  rw [dif_neg (show ¬(0 : Fin S4096x256.rank) ∈ DD.lhsBatch by decide),
    dif_pos (show (0 : Fin S4096x256.rank) ∈ DD.lhsNonContracting by decide)]
  rfl

theorem lhs1 (j : S4096x256.Idx) (q : DD.contr.Idx) : (DD.lhsIdx j q 1).val = (q ⟨0, by decide⟩).val :=
  DD.lhsIdx_val_of_single rfl j q

theorem rhs0 (j : S4096x256.Idx) (q : DD.contr.Idx) : (DD.rhsIdx j q 0).val = (q ⟨0, by decide⟩).val :=
  DD.rhsIdx_val_of_single rfl j q

theorem rhs1 (j : S4096x256.Idx) (q : DD.contr.Idx) : (DD.rhsIdx j q 1).val = (j 1).val := by
  unfold DotDims.rhsIdx
  rw [dif_neg (show ¬(1 : Fin S256x256.rank) ∈ DD.rhsBatch by decide),
    dif_pos (show (1 : Fin S256x256.rank) ∈ DD.rhsNonContracting by decide)]
  rfl

/-- The product into a zero accumulator read at (r, o): the contraction over the 256 input channels. -/
theorem mm_apply (A : FVec Ideal S4096x256 .bf16) (B : FVec Ideal S256x256 .bf16) (r : Fin 4096) (o : Fin 256) :
    matmul DD none A B (constant S4096x256 .f32 0x00000000#32) (ix2 r o) = ∑ i : Fin 256, A (ix2 r i) * B (ix2 i o) := by
  simp only [matmul]
  rw [Ideal.matmul_constant_zero_apply, ← Equiv.sum_comp (ValueIdx.contrEquiv1 DD 256 rfl rfl).symm]
  refine Finset.sum_congr rfl fun k _ => ?_
  have hk := ValueIdx.contrEquiv1_symm_val DD 256 rfl rfl k
  have el : DD.lhsIdx (ix2 r o) ((ValueIdx.contrEquiv1 DD 256 rfl rfl).symm k) = ix2 r k := funext fun a => Fin.ext (by
    match a with
    | ⟨0, _⟩ => exact lhs0 _ _
    | ⟨1, _⟩ => exact (lhs1 _ _).trans hk)
  have er : DD.rhsIdx (ix2 r o) ((ValueIdx.contrEquiv1 DD 256 rfl rfl).symm k) = ix2 k o := funext fun a => Fin.ext (by
    match a with
    | ⟨0, _⟩ => exact (rhs0 _ _).trans hk
    | ⟨1, _⟩ => exact rhs1 _ _)
  rw [el, er]

/-- One tap's product, viewed [64, 64, 256] and cropped at offset (dh, dw), read at (h, w, o). -/
theorem crop_apply (v4 : FVec Ideal S4096x256 .bf16) (sl : Vec Ideal S1x256x256 .bf16) (off : Fin 3 → Nat)
    (hs : S64x64x256.Slices off S62x62x256) (dh dw : Fin 3) (h0 : off 0 = dh.val) (h1 : off 1 = dw.val) (h2 : off 2 = 0)
    (h w : Fin 62) (o : Fin 256) :
    extractStridedSlice S62x62x256 off
        (shapeCast S64x64x256 (matmul DD none v4 (shapeCast S256x256 sl shapeCasts_S1x256x256_S256x256 : FVec Ideal S256x256 .bf16)
          (constant S4096x256 .f32 0x00000000#32)) shapeCasts_S4096x256_S64x64x256) hs (ix3 h w o)
      = ∑ i : Fin 256, v4 (ix2 (row (shift dh h) (shift dw w)) i) * sl (ix3 (0 : Fin 1) i o) := by
  refine (extractStridedSlice_apply off _ hs (ix3 h w o) (ix3 (shift dh h) (shift dw w) o) (fun a => match a with
    | ⟨0, _⟩ => by show h.val + dh.val = off 0 + h.val; omega
    | ⟨1, _⟩ => by show w.val + dw.val = off 1 + w.val; omega
    | ⟨2, _⟩ => by show o.val = off 2 + o.val; omega)).trans ?_
  refine (shapeCast_apply _ shapeCasts_S4096x256_S64x64x256 (ix3 (shift dh h) (shift dw w) o)
    (ix2 (row (shift dh h) (shift dw w)) o) ?_).trans ?_
  · rw [Shape.rowMajor_val_two, Shape.rowMajor_val_three]; rfl
  rw [mm_apply]
  refine Finset.sum_congr rfl fun i _ => ?_
  rw [shapeCast_1ab_ab_apply]

/-- Slab `k` of the staged weights read at (0, i, o) is the weights at (k, i, o). -/
theorem slab_apply (x1 : Vec Ideal S5x256x256 .bf16) (k : Fin 5) (offk : Fin 3 → Nat)
    (inb : ∀ a, offk a + S1x256x256.size a ≤ S5x256x256.size a) (e0 : offk 0 = k.val) (e1 : offk 1 = 0) (e2 : offk 2 = 0)
    (i o : Fin 256) :
    View.ld x1 (Rect.unit (s := S5x256x256) offk S1x256x256.size inb) (ix3 (0 : Fin 1) i o) = x1 (ix3 k i o) := by
  show x1 _ = x1 _
  refine congrArg x1 (funext fun a => Fin.ext ?_)
  match a with
  | ⟨0, _⟩ => show offk 0 + 1 * 0 = k.val; omega
  | ⟨1, _⟩ => show offk 1 + 1 * i.val = i.val; omega
  | ⟨2, _⟩ => show offk 2 + 1 * o.val = o.val; omega

/-- One tap at the image block and the staged weights: the contraction over input channels. -/
def btap (x0 : Vec Ideal S1x256x64x64 .f32) (x1 : Vec Ideal S5x256x256 .bf16) (k : Fin 5) (dh dw : Fin 3)
    (o : Fin 256) (h w : Fin 62) : EReal :=
  ∑ i : Fin 256, x0 (ix4 (0 : Fin 1) i (shift dh h) (shift dw w)) * x1 (ix3 k i o)

/-- A tap's cropped product at (h, w, o), through the flattened image and the tap's slab. -/
theorem tap_apply (x0 : Vec Ideal S1x256x64x64 .f32) (x1 : Vec Ideal S5x256x256 .bf16) (k : Fin 5) (offk : Fin 3 → Nat)
    (inb : ∀ a, offk a + S1x256x256.size a ≤ S5x256x256.size a) (e0 : offk 0 = k.val) (e1 : offk 1 = 0) (e2 : offk 2 = 0)
    (off : Fin 3 → Nat) (hs : S64x64x256.Slices off S62x62x256) (dh dw : Fin 3) (h0 : off 0 = dh.val) (h1 : off 1 = dw.val)
    (h2 : off 2 = 0) (h w : Fin 62) (o : Fin 256) :
    extractStridedSlice S62x62x256 off
        (shapeCast S64x64x256 (matmul DD none (k0_pay4 x0)
          (shapeCast S256x256 (View.ld x1 (Rect.unit (s := S5x256x256) offk S1x256x256.size inb)) shapeCasts_S1x256x256_S256x256 : FVec Ideal S256x256 .bf16)
          (constant S4096x256 .f32 0x00000000#32)) shapeCasts_S4096x256_S64x64x256) hs (ix3 h w o)
      = btap x0 x1 k dh dw o h w := by
  rw [crop_apply (k0_pay4 x0) _ off hs dh dw h0 h1 h2 h w o]
  unfold btap
  refine Finset.sum_congr rfl fun i _ => ?_
  rw [flat_apply, slab_apply x1 k offk inb e0 e1 e2]

/-- The scale both programs multiply by: the single-precision word of 1/√1281, read exactly. -/
abbrev scale : EReal := Ideal.ofBits .f32 0x3CE4E24C#32

/-- The zero fill reads zero. -/
theorem pay5_apply (j : S62x62x256.Idx) : k0_pay5 (F := Ideal) j = 0 := by
  unfold k0_pay5
  refine (congrFun (shapeCast_self _ shapeCasts_S62x62x256_S62x62x256) _).trans ?_
  exact Ideal.ofBits_zero_f32

/-- Tap 0 (offset (0, 0)) added to the accumulator. -/
theorem pay6_apply (x0 : Vec Ideal S1x256x64x64 .f32) (x1 : Vec Ideal S5x256x256 .bf16) (prev : Vec Ideal S62x62x256 .f32)
    (h w : Fin 62) (o : Fin 256) :
    k0_pay6 x0 (slab0 x1) prev (ix3 h w o) = prev (ix3 h w o) + btap x0 x1 0 0 0 o h w := by
  unfold k0_pay6
  refine (congrFun (shapeCast_self _ shapeCasts_S62x62x256_S62x62x256) _).trans ?_
  exact congrArg (prev (ix3 h w o) + ·) (tap_apply x0 x1 0 ![0, 0, 0] inb_S5x256x256_S1x256x256_0_0_0 rfl rfl rfl
    ![0, 0, 0] slices_S64x64x256_o0_0_0_S62x62x256 0 0 rfl rfl rfl h w o)

/-- Tap 1 (offset (0, 2)). -/
theorem pay7_apply (x0 : Vec Ideal S1x256x64x64 .f32) (x1 : Vec Ideal S5x256x256 .bf16) (prev : Vec Ideal S62x62x256 .f32)
    (h w : Fin 62) (o : Fin 256) :
    k0_pay7 x0 (slab1 x1) prev (ix3 h w o) = prev (ix3 h w o) + btap x0 x1 1 0 2 o h w := by
  unfold k0_pay7
  refine (congrFun (shapeCast_self _ shapeCasts_S62x62x256_S62x62x256) _).trans ?_
  exact congrArg (prev (ix3 h w o) + ·) (tap_apply x0 x1 1 ![1, 0, 0] inb_S5x256x256_S1x256x256_1_0_0 rfl rfl rfl
    ![0, 2, 0] slices_S64x64x256_o0_2_0_S62x62x256 0 2 rfl rfl rfl h w o)

/-- Tap 2 (offset (1, 1)). -/
theorem pay8_apply (x0 : Vec Ideal S1x256x64x64 .f32) (x1 : Vec Ideal S5x256x256 .bf16) (prev : Vec Ideal S62x62x256 .f32)
    (h w : Fin 62) (o : Fin 256) :
    k0_pay8 (k0_pay4 x0) (slab2 x1) prev (ix3 h w o) = prev (ix3 h w o) + btap x0 x1 2 1 1 o h w := by
  unfold k0_pay8
  refine (congrFun (shapeCast_self _ shapeCasts_S62x62x256_S62x62x256) _).trans ?_
  exact congrArg (prev (ix3 h w o) + ·) (tap_apply x0 x1 2 ![2, 0, 0] inb_S5x256x256_S1x256x256_2_0_0 rfl rfl rfl
    ![1, 1, 0] slices_S64x64x256_o1_1_0_S62x62x256 1 1 rfl rfl rfl h w o)

/-- Tap 3 (offset (2, 0)). -/
theorem pay9_apply (x0 : Vec Ideal S1x256x64x64 .f32) (x1 : Vec Ideal S5x256x256 .bf16) (prev : Vec Ideal S62x62x256 .f32)
    (h w : Fin 62) (o : Fin 256) :
    k0_pay9 (k0_pay4 x0) (slab3 x1) prev (ix3 h w o) = prev (ix3 h w o) + btap x0 x1 3 2 0 o h w := by
  unfold k0_pay9
  refine (congrFun (shapeCast_self _ shapeCasts_S62x62x256_S62x62x256) _).trans ?_
  exact congrArg (prev (ix3 h w o) + ·) (tap_apply x0 x1 3 ![3, 0, 0] inb_S5x256x256_S1x256x256_3_0_0 rfl rfl rfl
    ![2, 0, 0] slices_S64x64x256_o2_0_0_S62x62x256 2 0 rfl rfl rfl h w o)

/-- Tap 4 (offset (2, 2)). -/
theorem pay10_apply (x0 : Vec Ideal S1x256x64x64 .f32) (x1 : Vec Ideal S5x256x256 .bf16) (prev : Vec Ideal S62x62x256 .f32)
    (h w : Fin 62) (o : Fin 256) :
    k0_pay10 (k0_pay4 x0) (slab4 x1) prev (ix3 h w o) = prev (ix3 h w o) + btap x0 x1 4 2 2 o h w := by
  unfold k0_pay10
  exact congrArg (prev (ix3 h w o) + ·) (tap_apply x0 x1 4 ![4, 0, 0] inb_S5x256x256_S1x256x256_4_0_0 rfl rfl rfl
    ![2, 2, 0] slices_S64x64x256_o2_2_0_S62x62x256 2 2 rfl rfl rfl h w o)

/-- The accumulator after the five taps, read at (h, w, o). -/
theorem acc_apply (x0 : Vec Ideal S1x256x64x64 .f32) (x1 : Vec Ideal S5x256x256 .bf16) (h w : Fin 62) (o : Fin 256) :
    acc x0 x1 (ix3 h w o) = 0 + btap x0 x1 0 0 0 o h w + btap x0 x1 1 0 2 o h w + btap x0 x1 2 1 1 o h w
      + btap x0 x1 3 2 0 o h w + btap x0 x1 4 2 2 o h w := by
  unfold acc
  rw [pay10_apply, pay9_apply, pay8_apply, pay7_apply, pay6_apply, pay5_apply]

/-- The bias row added and the scale applied, read at (h, w, o). -/
theorem pay2_apply (x2 : Vec Ideal S1x256 .f32) (v : Vec Ideal S62x62x256 .f32) (h w : Fin 62) (o : Fin 256) :
    k0_pay2 x2 v (ix3 h w o) = (v (ix3 h w o) + x2 (ix2 (0 : Fin 1) o)) * scale := by
  unfold k0_pay2
  refine (congrFun (shapeCast_self _ shapeCasts_S62x62x256_S62x62x256) _).trans ?_
  refine congrArg (· * scale) ?_
  refine congrArg (v (ix3 h w o) + ·) ?_
  refine (broadcastTo_apply _ broadcasts_S1x1x256_S62x62x256 (ix3 h w o) (ix3 (0 : Fin 1) (0 : Fin 1) o)
    (fun a => match a with | ⟨0, _⟩ => rfl | ⟨1, _⟩ => rfl | ⟨2, _⟩ => rfl)).trans ?_
  refine (shapeCast_ab_1ab_apply _ shapeCasts_S1x256_S1x1x256 0 0 o).trans ?_
  exact congrFun (shapeCast_self _ shapeCasts_S1x256_S1x256) _

/-- The channel-first write reads the accumulator at the transposed entry. -/
theorem pay3_apply (v : Vec Ideal S62x62x256 .f32) (u : Fin 1) (o : Fin 256) (h w : Fin 62) :
    k0_pay3 v (ix4 u o h w) = v (ix3 h w o) := by
  unfold k0_pay3
  refine (shapeCast_abc_1abc_apply _ shapeCasts_S256x62x62_S1x256x62x62 u o h w).trans ?_
  exact transpose_apply [2, 0, 1] _ transposes_S62x62x256_p2_0_1_S256x62x62 (ix3 o h w) (ix3 h w o)
    (fun b => match b with | ⟨0, _⟩ => rfl | ⟨1, _⟩ => rfl | ⟨2, _⟩ => rfl)

/-- The output block read at (0, o, h, w). -/
theorem block_apply (x0 : Vec Ideal S1x256x64x64 .f32) (x1 : Vec Ideal S5x256x256 .bf16) (x2 : Vec Ideal S1x256 .f32)
    (u : Fin 1) (o : Fin 256) (h w : Fin 62) :
    block x0 x1 x2 (ix4 u o h w) = (0 + btap x0 x1 0 0 0 o h w + btap x0 x1 1 0 2 o h w + btap x0 x1 2 1 1 o h w
      + btap x0 x1 3 2 0 o h w + btap x0 x1 4 2 2 o h w + x2 (ix2 (0 : Fin 1) o)) * scale := by
  unfold block
  rw [pay3_apply, pay2_apply]
  unfold k0_pay1
  rw [shapeCast_self, acc_apply]

/-- THE BLOCK IS A BLOCK OF THE CONVOLUTION: when the image block is image `b` of `X`, the staged weights are
    `wn` with its two channel axes swapped, and the bias row is `bias`, the block's entry (0, o, h, w) is the
    convolution's entry (b, o, h, w). -/
theorem block_entry (x0 : Vec Ideal S1x256x64x64 .f32) (x1 : Vec Ideal S5x256x256 .bf16) (x2 : Vec Ideal S1x256 .f32)
    (X : S16x256x64x64.Idx → EReal) (wn : S5x256x256.Idx → EReal) (bias : S256.Idx → EReal) (b : Fin 16)
    (h0 : ∀ (i : Fin 256) (p q : Fin 64), x0 (ix4 (0 : Fin 1) i p q) = X (ix4 b i p q))
    (h1 : ∀ (k : Fin 5) (i o : Fin 256), x1 (ix3 k i o) = wn (ix3 k o i))
    (h2 : ∀ o : Fin 256, x2 (ix2 (0 : Fin 1) o) = bias (ix1 o))
    (u : Fin 1) (o : Fin 256) (h w : Fin 62) :
    block x0 x1 x2 (ix4 u o h w) = conv X wn bias scale (ix4 b o h w) := by
  rw [block_apply, conv_apply, zero_add]
  unfold taps tap btap
  simp only [h0, h1, h2]

end Cert.KernelIdeal.Body

end
-- ==== Proof.KernelHost.lean ====
/-
  What the kernel's region finds in the two arrays the host prepares before launching it.

  Before the region the host standardizes the weights: from each row W[k, o, ·] it subtracts the row's
  mean (the row's sum divided by 256), and divides the centred row by its Euclidean norm (the square root
  of the sum of the centred row's squares). It then swaps the two channel axes, so the region's weight
  operand holds the standardized weights at [k, i, o] ↦ wn[k, o, i]; the bias is viewed as one row [1, 256].
-/
import proofs.«117932_j16673063043688_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.StableHlo
open Idealize.ShloMosaic.ValueIdx
open Idealize.SL Idealize.SL.Sem

variable {F : FTy → Type} [FloatOps F]

/-- The weights with each row's mean subtracted. -/
def centred (W : FVec F S5x256x256 .f32) : FVec F S5x256x256 .f32 :=
  subf W (broadcastInDim S5x256x256 ![0, 1, 2] bcast_S5x256x1_S5x256x256_0_1_2
    (Host.divf
      (broadcastInDim S5x256x1 ![0, 1] bcast_S5x256_S5x256x1_0_1
        (Host.reduceAdd W (constant S_ .f32 0x00000000#32) reducesTo_S5x256x256_S5x256_d2 h_S_))
      (broadcastInDim S5x256x1 ![] bcast_S_S5x256x1 (constant S_ .f32 0x43800000#32))))

/-- The standardized weights: each centred row divided by its norm. -/
def wn (W : FVec F S5x256x256 .f32) : FVec F S5x256x256 .f32 :=
  Host.divf (centred W) (broadcastInDim S5x256x256 ![0, 1, 2] bcast_S5x256x1_S5x256x256_0_1_2
    (Host.sqrt (broadcastInDim S5x256x1 ![0, 1] bcast_S5x256_S5x256x1_0_1
      (Host.reduceAdd (mulf (centred W) (centred W)) (constant S_ .f32 0x00000000#32)
        reducesTo_S5x256x256_S5x256_d2 h_S_))))

variable (m : (ℓ : Loc nD τ sig) → Buf (Elt F) ℓ)

/-- The region's weight operand: the standardized weights with the channel axes swapped. -/
theorem V_weights (c : Dev nD) :
    (V m c main_v10 : S5x256x256.Idx → Elt F .bf16)
      = truncf .bf16 (transpose S5x256x256 [0, 2, 1] (wn (m ((c : Thread nD τ).loc main_arg1)))
          transposes_S5x256x256_S5x256x256_0_2_1) bitsLt_bf16_f32 := by
  dsimp only [Gen.V]
  simp only [Gen.hostOps0, Gen.hostOps0_1, Gen.hostOps0_2, List.flatten_cons, List.flatten_nil, List.append_nil,
    List.cons_append, List.nil_append]
  after_results_simp
  rfl

/-- The region's bias operand: the bias viewed as one row. -/
theorem V_bias (c : Dev nD) :
    (V m c main_v11 : S1x256.Idx → Elt F .f32)
      = shapeCast S1x256 (m ((c : Thread nD τ).loc main_arg2)) shapeCasts_S256_S1x256 := by
  dsimp only [Gen.V]
  simp only [Gen.hostOps0, Gen.hostOps0_1, Gen.hostOps0_2, List.flatten_cons, List.flatten_nil, List.append_nil,
    List.cons_append, List.nil_append]
  after_results_simp
  rfl

/-- Read at an entry, at the exact values: the weight operand at (k, i, o) is the standardized weights at (k, o, i). -/
theorem V_weights_apply (m : (ℓ : Loc nD τ sig) → Buf (Elt Ideal) ℓ) (c : Dev nD) (k : Fin 5) (i o : Fin 256) :
    (V m c main_v10 : S5x256x256.Idx → Elt Ideal .bf16) (ix3 k i o)
      = wn (F := Ideal) (m ((c : Thread nD τ).loc main_arg1)) (ix3 k o i) := by
  rw [V_weights]
  refine (truncf_apply _ bitsLt_bf16_f32 (ix3 k i o)).trans ?_
  exact transpose_apply [0, 2, 1] _ transposes_S5x256x256_S5x256x256_0_2_1 (ix3 k i o) (ix3 k o i)
    (fun b => match b with | ⟨0, _⟩ => rfl | ⟨1, _⟩ => rfl | ⟨2, _⟩ => rfl)

/-- The bias row at (0, o) is the bias at o. -/
theorem V_bias_apply (m : (ℓ : Loc nD τ sig) → Buf (Elt Ideal) ℓ) (c : Dev nD) (o : Fin 256) :
    (V m c main_v11 : S1x256.Idx → Elt Ideal .f32) (ix2 (0 : Fin 1) o)
      = (m ((c : Thread nD τ).loc main_arg2) : S256.Idx → Elt Ideal .f32) (ix1 o) := by
  rw [V_bias]
  exact shapeCast_a_1a_apply _ shapeCasts_S256_S1x256 0 o

end Cert.KernelIdeal.Host

end
-- ==== Proof.KernelValue.lean ====
/-
  The kernel's result array after its run, at the exact values: the convolution of the argument arrays.

  The grid has one point per image: point t reads image t of x (block index t on the batch axis, the other
  three axes whole), the whole staged weights and the whole bias row, and writes block t of the result
  (image t, every output channel, every output pixel). So what point t writes back is block t of ONE
  function of the arguments — the convolution — and the sixteen blocks tile the result: an entry
  (b, o, h, w) lies in the block of point b.
-/
import proofs.«117932_j16673063043688_2_alg».proof.Proof.Gen.KernelIdeal.Value
import proofs.«117932_j16673063043688_2_alg».proof.Proof.KernelBody
import proofs.«117932_j16673063043688_2_alg».proof.Proof.KernelTap
import proofs.«117932_j16673063043688_2_alg».proof.Proof.KernelHost

set_option maxRecDepth 16384

noncomputable section

namespace Cert.KernelIdeal.ConvValue

open Cert.KernelIdeal Cert.KernelIdeal.Gen Cert.KernelIdeal.Value Cert.KernelIdeal.Body Cert.KernelIdeal.Host
open Idealize.ShloMosaic Idealize.ShloMosaic.TcCoe Idealize.SL.Sem Idealize.ShloMosaic.ValueIdx Cert.ConvSpec
open Idealize.ShloMosaic.Pipeline (Dat)

variable (m : (ℓ : Loc nD τ sig) → Buf (Elt Ideal) ℓ) (ρ : Dev nD → PrngReg)

/-- The convolution of the arguments as the device holds them at launch. -/
def result (c : Dev nD) : S16x256x62x62.Idx → EReal :=
  conv (m ((c : Thread nD τ).loc main_arg0)) (wn (F := Ideal) (m ((c : Thread nD τ).loc main_arg1)))
    (m ((c : Thread nD τ).loc main_arg2)) scale

/-- The block indices over the grid: the image and result windows move along the batch axis with the
    point; the weight and bias windows stay at their one block. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-- WHAT POINT `t` WRITES BACK is block `t` of the convolution. -/
theorem flushed_eq (c : Dev nD) (t : Fin cfg0.N) :
    (dats m 0 c).flushed 3 t = ((cfg0.win 3).blk t).view.read (Elt Ideal) (result m c) := by
  rw [flushed3_A, out_eq_block]
  obtain ⟨a0, a1, a2, a3, b0, b1, b2, c0, c1, d0, d1, d2, d3⟩ := idx_facts t
  have ht : t.val < 16 := t.isLt
  funext j
  obtain ⟨u, o, h, w, rfl⟩ : ∃ (u : Fin 1) (o : Fin 256) (h w : Fin 62), j = ix4 u o h w :=
    ⟨j 0, j 1, j 2, j 3, eq_ix4 j⟩
  have hu : u.val = 0 := by have := u.isLt; omega
  show block (iblk m c 0 t) (iblk m c 1 t) (iblk m c 2 t) (ix4 u o h w)
    = result m c (((cfg0.win 3).blk t).view.emb (ix4 u o h w))
  have he : ((cfg0.win 3).blk t).view.emb (ix4 u o h w) = ix4 (⟨t.val, ht⟩ : Fin 16) o h w := by
    funext a; apply Fin.ext
    match a with
    | ⟨0, _⟩ => show win0_3.index t (0 : Fin 4) * 1 + 1 * u.val = t.val; omega
    | ⟨1, _⟩ => show win0_3.index t (1 : Fin 4) * 256 + 1 * o.val = o.val; omega
    | ⟨2, _⟩ => show win0_3.index t (2 : Fin 4) * 62 + 1 * h.val = h.val; omega
    | ⟨3, _⟩ => show win0_3.index t (3 : Fin 4) * 62 + 1 * w.val = w.val; omega
  rw [he]
  unfold result
  refine block_entry (iblk m c 0 t) (iblk m c 1 t) (iblk m c 2 t) (m ((c : Thread nD τ).loc main_arg0))
    (wn (F := Ideal) (m ((c : Thread nD τ).loc main_arg1))) (m ((c : Thread nD τ).loc main_arg2)) ⟨t.val, ht⟩ ?_ ?_ ?_ u o h w
  · intro i p q
    show V m c main_arg0 (((cfg0.win 0).blk t).view.emb (ix4 (0 : Fin 1) i p q)) = _
    rw [V_main_arg0]
    refine congrArg (m ((c : Thread nD τ).loc main_arg0)) (funext fun a => Fin.ext ?_)
    match a with
    | ⟨0, _⟩ => show win0_0.index t (0 : Fin 4) * 1 + 1 * 0 = t.val; omega
    | ⟨1, _⟩ => show win0_0.index t (1 : Fin 4) * 256 + 1 * i.val = i.val; omega
    | ⟨2, _⟩ => show win0_0.index t (2 : Fin 4) * 64 + 1 * p.val = p.val; omega
    | ⟨3, _⟩ => show win0_0.index t (3 : Fin 4) * 64 + 1 * q.val = q.val; omega
  · intro k i o'
    show V m c main_v10 (((cfg0.win 1).blk t).view.emb (ix3 k i o')) = _
    have e1 : ((cfg0.win 1).blk t).view.emb (ix3 k i o') = ix3 k i o' := by
      funext a; apply Fin.ext
      match a with
      | ⟨0, _⟩ => show win0_1.index t (0 : Fin 3) * 5 + 1 * k.val = k.val; omega
      | ⟨1, _⟩ => show win0_1.index t (1 : Fin 3) * 256 + 1 * i.val = i.val; omega
      | ⟨2, _⟩ => show win0_1.index t (2 : Fin 3) * 256 + 1 * o'.val = o'.val; omega
    rw [e1]
    exact V_weights_apply m c k i o'
  · intro o'
    show V m c main_v11 (((cfg0.win 2).blk t).view.emb (ix2 (0 : Fin 1) o')) = _
    have e2 : ((cfg0.win 2).blk t).view.emb (ix2 (0 : Fin 1) o') = ix2 (0 : Fin 1) o' := by
      funext a; apply Fin.ext
      match a with
      | ⟨0, _⟩ => show win0_2.index t (0 : Fin 2) * 1 + 1 * 0 = 0; omega
      | ⟨1, _⟩ => show win0_2.index t (1 : Fin 2) * 256 + 1 * o'.val = o'.val; omega
    rw [e2]
    exact V_bias_apply m c o'

/-- An entry of the result is in point `t`'s block iff each coordinate is in the block's range on its axis. -/
theorem mem_blk (t : Fin cfg0.N) (i : S16x256x62x62.Idx) :
    i ∈ ((cfg0.win 3).blk t).view.set ↔ ∀ a : Fin 4, win0_3.index t a * S1x256x62x62.size a ≤ (i a).val
      ∧ (i a).val < win0_3.index t a * S1x256x62x62.size a + S1x256x62x62.size a := by
  show i ∈ ((View.whole main_v12).slice (win0_3.rect t)).set ↔ _
  rw [View.set_slice_whole, Rect.mem_set_unit]
  exact Iff.rfl

/-- Every entry of the result is in the block of the point its batch coordinate names. -/
theorem cover (i : S16x256x62x62.Idx) :
    ∃ t : Fin cfg0.N, (cfg0.win 3).flush t = true ∧ i ∈ ((cfg0.win 3).blk t).view.set := by
  have hb : (i 0).val < 16 := (i 0).isLt
  have h1 : (i 1).val < 256 := (i 1).isLt
  have h2 : (i 2).val < 62 := (i 2).isLt
  have h3 : (i 3).val < 62 := (i 3).isLt
  refine ⟨⟨(i 0).val, hb⟩, flush0_3 _, ?_⟩
  obtain ⟨-, -, -, -, -, -, -, -, -, d0, d1, d2, d3⟩ := idx_facts ⟨(i 0).val, hb⟩
  rw [mem_blk]
  intro a
  match a with
  | ⟨0, _⟩ =>
    show win0_3.index ⟨(i 0).val, hb⟩ (0 : Fin 4) * 1 ≤ (i 0).val ∧ (i 0).val < win0_3.index ⟨(i 0).val, hb⟩ (0 : Fin 4) * 1 + 1
    rw [d0]; show (i 0).val * 1 ≤ (i 0).val ∧ (i 0).val < (i 0).val * 1 + 1; omega
  | ⟨1, _⟩ =>
    show win0_3.index ⟨(i 0).val, hb⟩ (1 : Fin 4) * 256 ≤ (i 1).val ∧ (i 1).val < win0_3.index ⟨(i 0).val, hb⟩ (1 : Fin 4) * 256 + 256
    rw [d1]; omega
  | ⟨2, _⟩ =>
    show win0_3.index ⟨(i 0).val, hb⟩ (2 : Fin 4) * 62 ≤ (i 2).val ∧ (i 2).val < win0_3.index ⟨(i 0).val, hb⟩ (2 : Fin 4) * 62 + 62
    rw [d2]; omega
  | ⟨3, _⟩ =>
    show win0_3.index ⟨(i 0).val, hb⟩ (3 : Fin 4) * 62 ≤ (i 3).val ∧ (i 3).val < win0_3.index ⟨(i 0).val, hb⟩ (3 : Fin 4) * 62 + 62
    rw [d3]; omega

/-- THE RESULT ARRAY after the run is the convolution of the arguments. -/
theorem final (c : Dev nD) : (dats m 0 c).arrAt 3 cfg0.N = result m c :=
  (dats m 0 c).arrAt_eq_of_cover 3 (result m c) (fun t _ => flushed_eq m c t) cover

/-- The kernel's run, read: every weakly fair execution terminates with the result array at the
    convolution of the arguments and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ConvValue

end
-- ==== Proof.RefValue.lean ====
/-
  The reference's result as the convolution of its arguments.

  The reference moves the channel axis of the image last, and for each tap slices the moved image at the
  tap's offset, contracts its channel axis against the tap's slab of the standardized weights, and adds the
  five products left to right; it adds the bias along the channel axis, scales, and moves the channel axis
  back. Read at an entry (b, o, h, w) of the result, each product is the sum over the input channels of
  x[b, i, h + dh, w + dw] · wn[k, o, i] — the convolution's tap.
-/
import proofs.«117932_j16673063043688_2_alg».proof.Proof.Gen.ReferenceIdeal.Read
import proofs.«117932_j16673063043688_2_alg».proof.Proof.ConvSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.ConvSpec
open scoped BigOperators

/-- The scale both programs multiply by: the single-precision word of 1/√1281, read exactly. -/
abbrev scale : EReal := Ideal.ofBits .f32 0x3CE4E24C#32

/-- Tap 0 of the reference: the image moved by (0, 0), contracted against slab 0 of the standardized weights. -/
theorem tap0_eq (x0 : (⟨S16x256x64x64, .f32⟩ : BufTy).Contents (Elt Ideal)) (x1 : (⟨S5x256x256, .f32⟩ : BufTy).Contents (Elt Ideal))
    (b : Fin 16) (o : Fin 256) (h w : Fin 62) :
    val_main_v13 (F := Ideal) x0 x1 (ix4 b h w o) = tap x0 (val_main_v8 (F := Ideal) x1) 0 0 0 b o h w := by
  rw [val_main_v13_apply]
  unfold tap
  refine Finset.sum_congr rfl fun i _ => ?_
  rw [val_main_v10_apply, val_main_v9_apply, val_main_v12_apply, val_main_v11_apply]
  have ho := o.isLt
  have hi := i.isLt
  have e1 : idx_main_v9 (idx_main_v10 (lidx_main_v13 (ix4 b h w o) i)) = ix4 b i (shift 0 h) (shift 0 w) :=
    funext fun a => Fin.ext (by
      match a with
      | ⟨0, _⟩ => rfl
      | ⟨1, _⟩ => rfl
      | ⟨2, _⟩ => exact rfl
      | ⟨3, _⟩ => exact rfl)
  have e2 : idx_main_v11 (idx_main_v12 (ridx_main_v13 (ix4 b h w o) i)) = ix3 0 o i :=
    funext fun a => Fin.ext (by
      match a with
      | ⟨0, _⟩ => exact rfl
      | ⟨1, _⟩ => show (o.val * 256 + i.val) / 256 % 256 = o.val; omega
      | ⟨2, _⟩ => show (o.val * 256 + i.val) % 256 = i.val; omega)
  rw [e1, e2]

/-- Tap 1 of the reference: the image moved by (0, 2), contracted against slab 1 of the standardized weights. -/
theorem tap1_eq (x0 : (⟨S16x256x64x64, .f32⟩ : BufTy).Contents (Elt Ideal)) (x1 : (⟨S5x256x256, .f32⟩ : BufTy).Contents (Elt Ideal))
    (b : Fin 16) (o : Fin 256) (h w : Fin 62) :
    val_main_v17 (F := Ideal) x0 x1 (ix4 b h w o) = tap x0 (val_main_v8 (F := Ideal) x1) 1 0 2 b o h w := by
  rw [val_main_v17_apply]
  unfold tap
  refine Finset.sum_congr rfl fun i _ => ?_
  rw [val_main_v14_apply, val_main_v9_apply, val_main_v16_apply, val_main_v15_apply]
  have ho := o.isLt
  have hi := i.isLt
  have e1 : idx_main_v9 (idx_main_v14 (lidx_main_v17 (ix4 b h w o) i)) = ix4 b i (shift 0 h) (shift 2 w) :=
    funext fun a => Fin.ext (by
      match a with
      | ⟨0, _⟩ => rfl
      | ⟨1, _⟩ => rfl
      | ⟨2, _⟩ => exact rfl
      | ⟨3, _⟩ => exact (show 2 + w.val = w.val + 2 from by omega))
  have e2 : idx_main_v15 (idx_main_v16 (ridx_main_v17 (ix4 b h w o) i)) = ix3 1 o i :=
    funext fun a => Fin.ext (by
      match a with
      | ⟨0, _⟩ => exact (show 1 + 0 = 1 from rfl)
      | ⟨1, _⟩ => show (o.val * 256 + i.val) / 256 % 256 = o.val; omega
      | ⟨2, _⟩ => show (o.val * 256 + i.val) % 256 = i.val; omega)
  rw [e1, e2]

/-- Tap 2 of the reference: the image moved by (1, 1), contracted against slab 2 of the standardized weights. -/
theorem tap2_eq (x0 : (⟨S16x256x64x64, .f32⟩ : BufTy).Contents (Elt Ideal)) (x1 : (⟨S5x256x256, .f32⟩ : BufTy).Contents (Elt Ideal))
    (b : Fin 16) (o : Fin 256) (h w : Fin 62) :
    val_main_v22 (F := Ideal) x0 x1 (ix4 b h w o) = tap x0 (val_main_v8 (F := Ideal) x1) 2 1 1 b o h w := by
  rw [val_main_v22_apply]
  unfold tap
  refine Finset.sum_congr rfl fun i _ => ?_
  rw [val_main_v19_apply, val_main_v9_apply, val_main_v21_apply, val_main_v20_apply]
  have ho := o.isLt
  have hi := i.isLt
  have e1 : idx_main_v9 (idx_main_v19 (lidx_main_v22 (ix4 b h w o) i)) = ix4 b i (shift 1 h) (shift 1 w) :=
    funext fun a => Fin.ext (by
      match a with
      | ⟨0, _⟩ => rfl
      | ⟨1, _⟩ => rfl
      | ⟨2, _⟩ => exact (show 1 + h.val = h.val + 1 from by omega)
      | ⟨3, _⟩ => exact (show 1 + w.val = w.val + 1 from by omega))
  have e2 : idx_main_v20 (idx_main_v21 (ridx_main_v22 (ix4 b h w o) i)) = ix3 2 o i :=
    funext fun a => Fin.ext (by
      match a with
      | ⟨0, _⟩ => exact (show 2 + 0 = 2 from rfl)
      | ⟨1, _⟩ => show (o.val * 256 + i.val) / 256 % 256 = o.val; omega
      | ⟨2, _⟩ => show (o.val * 256 + i.val) % 256 = i.val; omega)
  rw [e1, e2]

/-- Tap 3 of the reference: the image moved by (2, 0), contracted against slab 3 of the standardized weights. -/
theorem tap3_eq (x0 : (⟨S16x256x64x64, .f32⟩ : BufTy).Contents (Elt Ideal)) (x1 : (⟨S5x256x256, .f32⟩ : BufTy).Contents (Elt Ideal))
    (b : Fin 16) (o : Fin 256) (h w : Fin 62) :
    val_main_v27 (F := Ideal) x0 x1 (ix4 b h w o) = tap x0 (val_main_v8 (F := Ideal) x1) 3 2 0 b o h w := by
  rw [val_main_v27_apply]
  unfold tap
  refine Finset.sum_congr rfl fun i _ => ?_
  rw [val_main_v24_apply, val_main_v9_apply, val_main_v26_apply, val_main_v25_apply]
  have ho := o.isLt
  have hi := i.isLt
  have e1 : idx_main_v9 (idx_main_v24 (lidx_main_v27 (ix4 b h w o) i)) = ix4 b i (shift 2 h) (shift 0 w) :=
    funext fun a => Fin.ext (by
      match a with
      | ⟨0, _⟩ => rfl
      | ⟨1, _⟩ => rfl
      | ⟨2, _⟩ => exact (show 2 + h.val = h.val + 2 from by omega)
      | ⟨3, _⟩ => exact rfl)
  have e2 : idx_main_v25 (idx_main_v26 (ridx_main_v27 (ix4 b h w o) i)) = ix3 3 o i :=
    funext fun a => Fin.ext (by
      match a with
      | ⟨0, _⟩ => exact (show 3 + 0 = 3 from rfl)
      | ⟨1, _⟩ => show (o.val * 256 + i.val) / 256 % 256 = o.val; omega
      | ⟨2, _⟩ => show (o.val * 256 + i.val) % 256 = i.val; omega)
  rw [e1, e2]

/-- Tap 4 of the reference: the image moved by (2, 2), contracted against slab 4 of the standardized weights. -/
theorem tap4_eq (x0 : (⟨S16x256x64x64, .f32⟩ : BufTy).Contents (Elt Ideal)) (x1 : (⟨S5x256x256, .f32⟩ : BufTy).Contents (Elt Ideal))
    (b : Fin 16) (o : Fin 256) (h w : Fin 62) :
    val_main_v32 (F := Ideal) x0 x1 (ix4 b h w o) = tap x0 (val_main_v8 (F := Ideal) x1) 4 2 2 b o h w := by
  rw [val_main_v32_apply]
  unfold tap
  refine Finset.sum_congr rfl fun i _ => ?_
  rw [val_main_v29_apply, val_main_v9_apply, val_main_v31_apply, val_main_v30_apply]
  have ho := o.isLt
  have hi := i.isLt
  have e1 : idx_main_v9 (idx_main_v29 (lidx_main_v32 (ix4 b h w o) i)) = ix4 b i (shift 2 h) (shift 2 w) :=
    funext fun a => Fin.ext (by
      match a with
      | ⟨0, _⟩ => rfl
      | ⟨1, _⟩ => rfl
      | ⟨2, _⟩ => exact (show 2 + h.val = h.val + 2 from by omega)
      | ⟨3, _⟩ => exact (show 2 + w.val = w.val + 2 from by omega))
  have e2 : idx_main_v30 (idx_main_v31 (ridx_main_v32 (ix4 b h w o) i)) = ix3 4 o i :=
    funext fun a => Fin.ext (by
      match a with
      | ⟨0, _⟩ => exact (show 4 + 0 = 4 from rfl)
      | ⟨1, _⟩ => show (o.val * 256 + i.val) / 256 % 256 = o.val; omega
      | ⟨2, _⟩ => show (o.val * 256 + i.val) % 256 = i.val; omega)
  rw [e1, e2]

/-- The reference's result is the convolution of the image, the standardized weights and the bias. -/
theorem result_eq (x0 : (⟨S16x256x64x64, .f32⟩ : BufTy).Contents (Elt Ideal)) (x1 : (⟨S5x256x256, .f32⟩ : BufTy).Contents (Elt Ideal))
    (x2 : (⟨S256, .f32⟩ : BufTy).Contents (Elt Ideal)) :
    val_main_v39 (F := Ideal) x0 x1 x2 = conv x0 (val_main_v8 (F := Ideal) x1) x2 scale := by
  funext j
  obtain ⟨b, o, h, w, rfl⟩ : ∃ (b : Fin 16) (o : Fin 256) (h w : Fin 62), j = ix4 b o h w :=
    ⟨j 0, j 1, j 2, j 3, eq_ix4 j⟩
  have e : idx_main_v39 (ix4 b o h w) = ix4 b h w o := funext fun a => Fin.ext (by
    match a with | ⟨0, _⟩ => rfl | ⟨1, _⟩ => rfl | ⟨2, _⟩ => rfl | ⟨3, _⟩ => rfl)
  have eb : idx_main_v34 (idx_main_v35 (ix4 b h w o)) = ix1 o := funext fun a => Fin.ext (by
    match a with | ⟨0, _⟩ => rfl)
  rw [conv_apply, val_main_v39_apply, e, val_main_v38_apply, val_main_v36_apply, val_main_v33_apply, val_main_v28_apply,
    val_main_v23_apply, val_main_v18_apply, tap0_eq, tap1_eq, tap2_eq, tap3_eq, tap4_eq, val_main_v35_apply,
    val_main_v34_apply, eb, val_main_v37_apply, val_main_cst_1_apply]
  rfl

end Cert.ReferenceIdeal.RefValue

end
-- ==== Proof.WeightsAgree.lean ====
/-
  Both programs standardize the weights by the same operations in the same order — subtract each row's
  mean, divide by the centred row's norm — so the kernel's standardized weights and the reference's are
  one function of the weight argument.
-/
import proofs.«117932_j16673063043688_2_alg».proof.Proof.KernelHost
import proofs.«117932_j16673063043688_2_alg».proof.Proof.Gen.ReferenceIdeal.Read

noncomputable section

namespace Cert.Proof.Weights

open Idealize.ShloMosaic

/-- The kernel's standardized weights are the reference's. -/
theorem wn_eq (W : FVec Ideal Cert.KernelIdeal.S5x256x256 .f32) :
    Cert.KernelIdeal.Host.wn (F := Ideal) W = Cert.ReferenceIdeal.Read.val_main_v8 (F := Ideal) W := rfl

end Cert.Proof.Weights

end
-- ==== Proof.lean ====
/-
  A sparse 3×3 convolution with five taps, a bias and a scale, over a batch of sixteen 256-channel 64×64
  images, against its plain reference.

  The kernel standardizes the weights on the host (each row mean-centred and divided by its norm), swaps
  their channel axes, and runs one grid point per image: the image block is flattened to one row per pixel,
  multiplied by each tap's weight slab on the whole 64×64 grid, and each product is cropped at the tap's
  offset and added into a zeroed accumulator; the bias row is added, the sum scaled, and the block written
  channel-first. The reference moves the channel axis last, slices the image at each tap's offset before
  contracting it against the same standardized weights, adds the five products, the bias and applies the
  same scale, and moves the channel axis back.

  At the exact values both results are, at (b, o, h, w),
      (∑ over the five taps (k; dh, dw) of ∑ i, x[b, i, h + dh, w + dw] · wn[k, o, i] + bias[o]) · scale:
  cropping after the product reads the same pixels as slicing before it, the kernel's extra leading zero is
  neutral for addition, a change of float format is the identity, and the scale is the same word on both
  sides. No law that fails at the infinities is used, so the precondition is never opened.

  ConvSpec states that function; KernelBlock / KernelBody / KernelTap / KernelHost / KernelValue read the
  kernel's run as it (the run's scratch read-backs collapsed, the block read at an entry, the host-prepared
  operands, the sixteen blocks tiling the result); RefValue reads the reference's run as it; WeightsAgree
  identifies the two standardizations.
-/
import proofs.«117932_j16673063043688_2_alg».proof.Defs
import proofs.«117932_j16673063043688_2_alg».proof.Proof.Gen.Kernel
import proofs.«117932_j16673063043688_2_alg».proof.Proof.Gen.Kernel.Skeleton
import proofs.«117932_j16673063043688_2_alg».proof.Proof.Gen.Kernel.Launch
import proofs.«117932_j16673063043688_2_alg».proof.Proof.Gen.Kernel.Points
import proofs.«117932_j16673063043688_2_alg».proof.Proof.Gen.Kernel.Frame
import proofs.«117932_j16673063043688_2_alg».proof.Proof.Gen.KernelIdeal
import proofs.«117932_j16673063043688_2_alg».proof.Proof.Gen.KernelIdeal.Skeleton
import proofs.«117932_j16673063043688_2_alg».proof.Proof.Gen.KernelIdeal.Launch
import proofs.«117932_j16673063043688_2_alg».proof.Proof.Gen.KernelIdeal.Points
import proofs.«117932_j16673063043688_2_alg».proof.Proof.Gen.KernelIdeal.Frame
import proofs.«117932_j16673063043688_2_alg».proof.Proof.Gen.ReferenceIdeal
import proofs.«117932_j16673063043688_2_alg».proof.Proof.Gen.Pre_finite_inputs
import proofs.«117932_j16673063043688_2_alg».proof.Proof.Gen.KernelIdeal.Value
import proofs.«117932_j16673063043688_2_alg».proof.Proof.Gen.ReferenceIdeal.Run
import proofs.«117932_j16673063043688_2_alg».proof.Proof.Gen.ReferenceIdeal.Read
import proofs.«117932_j16673063043688_2_alg».proof.Proof.KernelValue
import proofs.«117932_j16673063043688_2_alg».proof.Proof.RefValue
import proofs.«117932_j16673063043688_2_alg».proof.Proof.WeightsAgree
import Idealize.ShloMosaic.Adequacy
import Idealize.ShloMosaic.Init

noncomputable section

namespace Cert.Proof

open Idealize.ShloMosaic Idealize.SL.Sem Cert.Kernel

/-- The word-level kernel terminates, faults nowhere and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the convolution of the arguments. -/
theorem algebraic : Cert.algebraic_KernelIdeal_ReferenceIdeal := by
  intro m ρ m' ρ' _ hagree
  refine ⟨fun c => Cert.KernelIdeal.ConvValue.result m c, Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq, (hagree c).1, (hagree c).2.1,
    (hagree c).2.2]
  unfold Cert.KernelIdeal.ConvValue.result
  beta_reduce
  rw [Cert.Proof.Weights.wn_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
